-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S4096x4096 .f32) (main_arg2 : FVec F S128x128 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩
abbrev S512x2048 : Shape := ⟨2, ![512, 2048]⟩
abbrev S512x128 : Shape := ⟨2, ![512, 128]⟩
abbrev S2048x128 : Shape := ⟨2, ![2048, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S1x128, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x128, .f32⟩
  | .local _ .vmem, ⟨8, _⟩ => ⟨S512x128, .f32⟩
  | .local _ .vmem, ⟨9, _⟩ => ⟨S4096x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S512x2048_S512x2048_0_0 : ∀ a, (![0, 0] : Fin 2 → Nat) a + S512x2048.size a ≤ S512x2048.size a
  h_S512x2048 : 0 < S512x2048.numel
  inb_S4096x128_S2048x128_0_0 : ∀ a, (![0, 0] : Fin 2 → Nat) a + S2048x128.size a ≤ S4096x128.size a
  h_S2048x128 : 0 < S2048x128.numel
  inb_S4096x128_S2048x128_2048_0 : ∀ a, (![2048, 0] : Fin 2 → Nat) a + S2048x128.size a ≤ S4096x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S4096x128_S128x128_S4096x128_1_0_0_1_n_n_wf : DotDims.WF S4096x128 S128x128 S4096x128 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x4096.size a
  hwx0_4 : ∀ i : grid0.Coords, EltTy.bits .f32 = 32 ∨ (Rect.block (s := S4096x4096) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S4096x128, .f32⟩
  | .hbm, ⟨5, _⟩ => ⟨S4096x128, .f32⟩
  | .hbm, ⟨6, _⟩ => ⟨S1x128, .f32⟩
  | .hbm, ⟨7, _⟩ => ⟨S4096x128, .f32⟩
  | .hbm, ⟨8, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.BitsEntry.lean ====
/-
  The graph-convolution kernel's launch, up to its body. @main reshapes the bias to one row and then runs one
  region over a grid of eight points; point t streams rows 512 t … 512 t + 511 of the adjacency matrix as two
  column halves (two windows on the one adjacency array), keeps x, the weight and the bias row resident, and
  writes back rows 512 t … of the result. Here: the arrays as the region finds them (the arguments untouched
  by the reshape), each window's block at a point, that every input's staging buffer holds its block at every
  point whether fetched there or not, the condition "this is the first point" in closed form, and the staging
  and scratch buffers by name.
-/
import proofs.«111326_g70454643523774_cont_sun_c4_160_7_alg».proof.Proof.Gen.Kernel.Launch
import proofs.«111326_g70454643523774_cont_sun_c4_160_7_alg».proof.Proof.Gen.Kernel.Skeleton
import proofs.«111326_g70454643523774_cont_sun_c4_160_7_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: the launch memory after the bias's reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! The reshape writes its own result only: each argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's current staging buffer holds its block at every point: a fetch puts it there, and where the
    pipeline does not fetch, the block index has not moved and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The first point -/

/-- The body's one condition, from the grid coordinate: "program_id(0) == 0". -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val = 0 :=
  (by decide +kernel : ∀ t : Fin grid0.N, cond0 (grid0.coords t) ↔ t.val = 0)

/-! ## No window is ever idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## The staging buffers at a point, and the scratch -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)
/-- The scratch that keeps `x · weight` from the first point on. -/
abbrev scM : Memref sig .tc .vmem S4096x128 .bf16 := Memref.whole cc0_scratch0
/-- One staging buffer of the result window, and the scratch, as views through which contents are stated. -/
abbrev VO : View sig .tc .vmem S512x128 .f32 := (Memref.whole cc0_stg5_0 : Memref sig .tc .vmem S512x128 .f32).view
abbrev VS : View sig .tc .vmem S4096x128 .bf16 := scM.view

/-- The core's scoped buffers that the pipeline does not stage: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Run

end
-- ==== Proof.BitsFirst.lean ====
/-
  The body at the grid's first point. There the condition holds: the body loads all of x and the weight,
  stores their product (narrowed to bf16) over the whole scratch, then loads the two column halves of its
  adjacency rows, the two row halves of the scratch it has just written, and the bias row, and stores
  adjl · scratch[0 … 2047] + adjr · scratch[2048 … 4095] + bias over the whole result block. Stated on any
  whole staging buffers: the inputs are handed back as they were; the result block and the scratch end with
  the pieces the stores wrote, whatever they held before.
-/
import proofs.«111326_g70454643523774_cont_sun_c4_160_7_alg».proof.Proof.BitsEntry

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point's stores leave in the result block (`L5`) and in the scratch (`LS`), with the
    proof that the body runs to a continuation that holds the inputs unchanged and those two buffers with the
    pieces written. -/
noncomputable def runFirst (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i)
    (x0 : Vec F S4096x128 .f32) (x1 : Vec F S128x128 .f32) (x2 : Vec F S1x128 .f32) (x3 : Vec F S512x2048 .f32) (x4 : Vec F S512x2048 .f32) :
    Σ' (L5 : List (View.Piece (Elt F) S512x128 .f32)), { LS : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Run

end
-- ==== Proof.BitsLater.lean ====
/-
  The body at every later point. The condition fails, so nothing is stored into the scratch: the body loads
  the two column halves of its adjacency rows, the two row halves of the scratch as the first point left it,
  and the bias row, and stores adjl · scratch[0 … 2047] + adjr · scratch[2048 … 4095] + bias over the whole
  result block. Stated on any whole staging buffers: the inputs and the scratch are handed back as they were;
  the result block ends with the pieces the store wrote, whatever it held before.
-/
import proofs.«111326_g70454643523774_cont_sun_c4_160_7_alg».proof.Proof.BitsFirst

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later point's store leaves in the result block, with the proof that the body runs to a
    continuation that holds the inputs and the scratch unchanged and the result block with the pieces written. -/
noncomputable def runLater (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : ¬cond0 i)
    (x0 : Vec F S4096x128 .f32) (x1 : Vec F S128x128 .f32) (x2 : Vec F S1x128 .f32) (x3 : Vec F S512x2048 .f32) (x4 : Vec F S512x2048 .f32) (xs : Vec F S4096x128 .bf16) :
    { L5 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.Kernel.Run

end
-- ==== Proof.BitsFrame.lean ====
/-
  The kernel's run, whole. What the result block and the scratch hold after each point: the scratch, from the
  first point on, is what that point's store left (x · weight, narrowed); the result block after point t is what
  that point's store left, computed from the point's adjacency rows, the scratch and the bias row. Between
  points the body keeps only the scratch. The adjacency array is read through two windows (its left and right
  column halves), so its buffer is lent to them at two complementary half shares, which is enough for the
  pipeline's reads. With these the body's obligation holds at every point, and the run terminates with every
  array at what the write-backs leave and every other buffer as the region found it; in particular the four
  arguments end unchanged.
-/
import proofs.«111326_g70454643523774_cont_sun_c4_160_7_alg».proof.Proof.BitsLater
import Idealize.ShloMosaic.Lib.Ring

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

/-- The first point's store tiles the result block. -/
theorem coverFirst5 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) (y : S512x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S512x128.size (by sl_kernel_rfl) y
/-- The first point's store tiles the scratch. -/
theorem coverFirstS (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) (y : S4096x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S4096x128.size (by sl_kernel_rfl) y
/-- A later point's store tiles the result block. -/
theorem coverLater5 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : ¬cond0 i) (x0 : Vec F S4096x128 .f32) (x1 : Vec F S128x128 .f32) (x2 : Vec F S1x128 .f32) (x3 : Vec F S512x2048 .f32) (x4 : Vec F S512x2048 .f32) (xs : Vec F S4096x128 .bf16) (y : S512x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S512x128.size (by sl_kernel_rfl) y

/-- What the first point leaves in the result block. -/
def outFirst (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) : Vec F S512x128 .f32 :=
  VO.read (Elt F) (VO.writes (Elt F) VO.junk (runFirst c i arg1 harg1 arg2 harg2 arg3 harg3 arg4 harg4 arg5 harg5 arg6 harg6 arg7 harg7 hc x0 x1 x2 x3 x4).1)
/-- What the first point leaves in the scratch. -/
def scrFirst (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) : Vec F S4096x128 .bf16 :=
  VS.read (Elt F) (VS.writes (Elt F) VS.junk (runFirst c i arg1 harg1 arg2 harg2 arg3 harg3 arg4 harg4 arg5 harg5 arg6 harg6 arg7 harg7 hc x0 x1 x2 x3 x4).2.1)
/-- What a later point leaves in the result block, the scratch holding `xs`. -/
def outLater (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : ¬cond0 i) (x0 : Vec F S4096x128 .f32) (x1 : Vec F S128x128 .f32) (x2 : Vec F S1x128 .f32) (x3 : Vec F S512x2048 .f32) (x4 : Vec F S512x2048 .f32) (xs : Vec F S4096x128 .bf16) : Vec F S512x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The scratch from the first point on. -/
def scr (c : Dev nD) : Vec F S4096x128 .bf16 :=
  scrFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) scM (Memref.isWhole_whole _) ((hcond0 t0_0).mpr rfl) (iblk m c 0 t0_0) (iblk m c 1 t0_0) (iblk m c 2 t0_0) (iblk m c 3 t0_0) (iblk m c 4 t0_0)

/-- The result block after point `t`. -/
def outAt (c : Dev nD) (t : Fin cfg0.N) : Vec F S512x128 .f32 :=
  if h : t.val = 0 then
    outFirst c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t)
  else
    outLater c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (scr m c)

/-- The body's invariant before position `n`: at the start the scratch at anything, afterwards at `scr`. -/
def PhiS (c : Dev nD) : ℕ → sProp 𝕄
  | 0 => iprop(∃ d, owns (c : Thread nD τ) scM fullShare d)
  | _ + 1 => owns (c : Thread nD τ) scM fullShare (scr m c)

theorem PhiS_pos (c : Dev nD) (n : ℕ) (hz : n ≠ 0) : PhiS m c n = owns (c : Thread nD τ) scM fullShare (scr m c) := by
  cases n with
  | zero => exact absurd rfl hz
  | succ n => rfl

/-! ## The proof data -/

/-- On core `c`: the arrays as the region finds them; after the body each input's buffer at its block and the
    result's at `outAt`; the invariant `PhiS`; the adjacency array's two windows at complementary half shares, the
    other inputs at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = owns (c : Thread nD τ) scM fullShare (scr m c) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) :
    (dats m 0 c).leavesExact 0 t = owns (c : Thread nD τ) (ms0 t) fullShare ((dats m 0 c).after 0 t) := by
  unfold Dat.leavesExact; rw [live0 t]
theorem leaves1 (c : Dev nD) (t : Fin cfg0.N) :
    (dats m 0 c).leavesExact 1 t = owns (c : Thread nD τ) (ms1 t) fullShare ((dats m 0 c).after 1 t) := by
  unfold Dat.leavesExact; rw [live1 t]
theorem leaves2 (c : Dev nD) (t : Fin cfg0.N) :
    (dats m 0 c).leavesExact 2 t = owns (c : Thread nD τ) (ms2 t) fullShare ((dats m 0 c).after 2 t) := by
  unfold Dat.leavesExact; rw [live2 t]
theorem leaves3 (c : Dev nD) (t : Fin cfg0.N) :
    (dats m 0 c).leavesExact 3 t = owns (c : Thread nD τ) (ms3 t) fullShare ((dats m 0 c).after 3 t) := by
  unfold Dat.leavesExact; rw [live3 t]
theorem leaves4 (c : Dev nD) (t : Fin cfg0.N) :
    (dats m 0 c).leavesExact 4 t = owns (c : Thread nD τ) (ms4 t) fullShare ((dats m 0 c).after 4 t) := by
  unfold Dat.leavesExact; rw [live4 t]
theorem leaves5 (c : Dev nD) (t : Fin cfg0.N) :
    (dats m 0 c).leavesExact 5 t = owns (c : Thread nD τ) (ms5 t) fullShare ((dats m 0 c).after 5 t) := by
  unfold Dat.leavesExact; rw [live5 t]

set_option maxHeartbeats 4800000 in
/-- At any point the inputs' buffers hold their blocks; at the first point the first run applies, with the scratch
    at anything, and leaves it at `scr`; at a later point the later run applies with the scratch at `scr`, and
    hands it back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_succ, Phi_castSucc, leaves0, leaves1, leaves2, leaves3, leaves4, leaves5, after0, after1, after2, after3, after4, after5]
  by_cases hz : t.val = 0
  · obtain rfl : t = t0_0 := Fin.ext hz
    rw [show outAt m c t0_0 = outFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) scM (Memref.isWhole_whole _) ((hcond0 t0_0).mpr rfl) (iblk m c 0 t0_0) (iblk m c 1 t0_0) (iblk m c 2 t0_0) (iblk m c 3 t0_0) (iblk m c 4 t0_0) from dif_pos rfl]
    rw [show PhiS m c (t0_0 : Fin cfg0.N).val = iprop(∃ d, owns (c : Thread nD τ) scM fullShare d) from rfl]
    unfold outFirst scr scrFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t0_0) _ _ _ _ _ _ _ _ _ _ _ _ _ _ ((hcond0 t0_0).mpr rfl) (iblk m c 0 t0_0) (iblk m c 1 t0_0) (iblk m c 2 t0_0) (iblk m c 3 t0_0) (iblk m c 4 t0_0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverFirstS c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst5 c _ _ _ _ _ _ _ _ _ _ _ _ _ _ _ _ _ _ _ _ _)
  · rw [show outAt m c t = outLater c (grid0.coords t) (ms0 t) (hs0 t) (ms1 t) (hs1 t) (ms2 t) (hs2 t) (ms3 t) (hs3 t) (ms4 t) (hs4 t) (ms5 t) (hs5 t) scM (Memref.isWhole_whole _) (fun hc => hz ((hcond0 t).mp hc)) (iblk m c 0 t) (iblk m c 1 t) (iblk m c 2 t) (iblk m c 3 t) (iblk m c 4 t) (scr m c) from dif_neg hz]
    rw [PhiS_pos m c _ hz]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hc => hz ((hcond0 t).mp hc)) (iblk m c 0 t) (iblk m c 1 t) (iblk m c 2 t) (iblk m c 3 t) (iblk m c 4 t) (scr m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater5 c _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The launch -/

/-- A window's array is a whole buffer: held through the window, it is the buffer's points-to. -/
theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The buffers behind the windows' arrays, each whole at the full share, are the windows' arrays at their shares:
    the adjacency array's full share is its left half and its right half. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hb : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_v0) ↦{fullShare} V m c main_v0) ∗ (((c : Thread nD τ).loc main_arg1) ↦{fullShare} V m c main_arg1)
          ∗ (((c : Thread nD τ).loc main_v1) ↦{fullShare} V m c main_v1)) := by
    unfold Pipeline.arrBufs
    exact bigSep_eq_bigSepL_of_eq [main_arg0, main_arg2, main_v0, main_arg1, main_v1] (by decide) (by decide) _
  rw [hb]
  unfold Dat.arrays
  rw [bigSep_W0]
  rw [arr_pt c 0, arr_pt c 1, arr_pt c 2, arr_pt c 3, arr_pt c 4, arr_pt c 5]
  rw [show (dats m 0 c).share 0 = fullShare from rfl, show (dats m 0 c).share 1 = fullShare from rfl,
    show (dats m 0 c).share 2 = fullShare from rfl, show (dats m 0 c).share 3 = fullShare.left from rfl,
    show (dats m 0 c).share 4 = fullShare.right from rfl, show (dats m 0 c).share 5 = fullShare from rfl]
  iintro ⟨H0, H2, Hv0, H1, Hv1⟩
  ihave H1' := (pointsTo_share (PosShare.mem_left_op_right fullShare)).1 $$ H1
  icases H1' with ⟨H1l, H1r⟩
  isplitl [H0]; · iexact H0
  isplitl [H2]; · iexact H2
  isplitl [Hv0]; · iexact Hv0
  isplitl [H1l]; · iexact H1l
  isplitl [H1r]; · iexact H1r
  iexact Hv1

/-- Every weakly fair execution of @main terminates, with every array of the pipeline at what the write-backs
    leave and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_in m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest_scratch, show (dats m 0 c).Φ 0 = iprop(∃ d, owns (c : Thread nD τ) scM fullShare d) from rfl]
      iintro ⟨-, H⟩; iexact H)
    (hout := fun c => by
      rw [scopedRest_scratch]
      rw [show (dats m 0 c).Φ (Fin.last cfg0.N) = owns (c : Thread nD τ) scM fullShare (scr m c) from rfl]
      iintro H; isplitr; · iempintro
      iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The bias is no window's array and is unscoped: it bypasses the region. -/
theorem main_arg3_rest : main_arg3 ∈ Pipeline.restRefs sig spec0 :=
  Pipeline.mem_restRefs_of main_arg3 (by decide) (by decide)

/-- The frame: @main runs to the end without a fault and the four arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 1).trans (((dats m 0 c).arrAt_in 1 rfl _).trans ((A_eq m c 1).trans (V_main_arg2 m c))),
     ((h c).2 main_arg3 main_arg3_rest).trans (V_main_arg3 m c)⟩) (run_main m ρ)

end Cert.Kernel.Run

end
-- ==== Proof.IdealEntry.lean ====
/-
  The graph-convolution kernel's launch, up to its body. @main reshapes the bias to one row and then runs one
  region over a grid of eight points; point t streams rows 512 t … 512 t + 511 of the adjacency matrix as two
  column halves (two windows on the one adjacency array), keeps x, the weight and the bias row resident, and
  writes back rows 512 t … of the result. Here: the arrays as the region finds them (the arguments untouched
  by the reshape), each window's block at a point, that every input's staging buffer holds its block at every
  point whether fetched there or not, the condition "this is the first point" in closed form, and the staging
  and scratch buffers by name.
-/
import proofs.«111326_g70454643523774_cont_sun_c4_160_7_alg».proof.Proof.Gen.KernelIdeal.Launch
import proofs.«111326_g70454643523774_cont_sun_c4_160_7_alg».proof.Proof.Gen.KernelIdeal.Skeleton
import proofs.«111326_g70454643523774_cont_sun_c4_160_7_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: the launch memory after the bias's reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! The reshape writes its own result only: each argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's current staging buffer holds its block at every point: a fetch puts it there, and where the
    pipeline does not fetch, the block index has not moved and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The first point -/

/-- The body's one condition, from the grid coordinate: "program_id(0) == 0". -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val = 0 :=
  (by decide +kernel : ∀ t : Fin grid0.N, cond0 (grid0.coords t) ↔ t.val = 0)

/-! ## No window is ever idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## The staging buffers at a point, and the scratch -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)
/-- The scratch that keeps `x · weight` from the first point on. -/
abbrev scM : Memref sig .tc .vmem S4096x128 .bf16 := Memref.whole cc0_scratch0
/-- One staging buffer of the result window, and the scratch, as views through which contents are stated. -/
abbrev VO : View sig .tc .vmem S512x128 .f32 := (Memref.whole cc0_stg5_0 : Memref sig .tc .vmem S512x128 .f32).view
abbrev VS : View sig .tc .vmem S4096x128 .bf16 := scM.view

/-- The core's scoped buffers that the pipeline does not stage: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Run

end
-- ==== Proof.IdealFirst.lean ====
/-
  The body at the grid's first point. There the condition holds: the body loads all of x and the weight,
  stores their product (narrowed to bf16) over the whole scratch, then loads the two column halves of its
  adjacency rows, the two row halves of the scratch it has just written, and the bias row, and stores
  adjl · scratch[0 … 2047] + adjr · scratch[2048 … 4095] + bias over the whole result block. Stated on any
  whole staging buffers: the inputs are handed back as they were; the result block and the scratch end with
  the pieces the stores wrote, whatever they held before.
-/
import proofs.«111326_g70454643523774_cont_sun_c4_160_7_alg».proof.Proof.IdealEntry

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point's stores leave in the result block (`L5`) and in the scratch (`LS`), with the
    proof that the body runs to a continuation that holds the inputs unchanged and those two buffers with the
    pieces written. -/
noncomputable def runFirst (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i)
    (x0 : Vec F S4096x128 .f32) (x1 : Vec F S128x128 .f32) (x2 : Vec F S1x128 .f32) (x3 : Vec F S512x2048 .f32) (x4 : Vec F S512x2048 .f32) :
    Σ' (L5 : List (View.Piece (Elt F) S512x128 .f32)), { LS : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Run

end
-- ==== Proof.IdealLater.lean ====
/-
  The body at every later point. The condition fails, so nothing is stored into the scratch: the body loads
  the two column halves of its adjacency rows, the two row halves of the scratch as the first point left it,
  and the bias row, and stores adjl · scratch[0 … 2047] + adjr · scratch[2048 … 4095] + bias over the whole
  result block. Stated on any whole staging buffers: the inputs and the scratch are handed back as they were;
  the result block ends with the pieces the store wrote, whatever it held before.
-/
import proofs.«111326_g70454643523774_cont_sun_c4_160_7_alg».proof.Proof.IdealFirst

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later point's store leaves in the result block, with the proof that the body runs to a
    continuation that holds the inputs and the scratch unchanged and the result block with the pieces written. -/
noncomputable def runLater (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : ¬cond0 i)
    (x0 : Vec F S4096x128 .f32) (x1 : Vec F S128x128 .f32) (x2 : Vec F S1x128 .f32) (x3 : Vec F S512x2048 .f32) (x4 : Vec F S512x2048 .f32) (xs : Vec F S4096x128 .bf16) :
    { L5 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.KernelIdeal.Run

end
-- ==== Proof.IdealFrame.lean ====
/-
  The kernel's run, whole. What the result block and the scratch hold after each point: the scratch, from the
  first point on, is what that point's store left (x · weight, narrowed); the result block after point t is what
  that point's store left, computed from the point's adjacency rows, the scratch and the bias row. Between
  points the body keeps only the scratch. The adjacency array is read through two windows (its left and right
  column halves), so its buffer is lent to them at two complementary half shares, which is enough for the
  pipeline's reads. With these the body's obligation holds at every point, and the run terminates with every
  array at what the write-backs leave and every other buffer as the region found it; in particular the four
  arguments end unchanged.
-/
import proofs.«111326_g70454643523774_cont_sun_c4_160_7_alg».proof.Proof.IdealLater
import Idealize.ShloMosaic.Lib.Ring

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

/-- The first point's store tiles the result block. -/
theorem coverFirst5 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) (y : S512x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S512x128.size (by sl_kernel_rfl) y
/-- The first point's store tiles the scratch. -/
theorem coverFirstS (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) (y : S4096x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S4096x128.size (by sl_kernel_rfl) y
/-- A later point's store tiles the result block. -/
theorem coverLater5 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : ¬cond0 i) (x0 : Vec F S4096x128 .f32) (x1 : Vec F S128x128 .f32) (x2 : Vec F S1x128 .f32) (x3 : Vec F S512x2048 .f32) (x4 : Vec F S512x2048 .f32) (xs : Vec F S4096x128 .bf16) (y : S512x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S512x128.size (by sl_kernel_rfl) y

/-- What the first point leaves in the result block. -/
def outFirst (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) : Vec F S512x128 .f32 :=
  VO.read (Elt F) (VO.writes (Elt F) VO.junk (runFirst c i arg1 harg1 arg2 harg2 arg3 harg3 arg4 harg4 arg5 harg5 arg6 harg6 arg7 harg7 hc x0 x1 x2 x3 x4).1)
/-- What the first point leaves in the scratch. -/
def scrFirst (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) : Vec F S4096x128 .bf16 :=
  VS.read (Elt F) (VS.writes (Elt F) VS.junk (runFirst c i arg1 harg1 arg2 harg2 arg3 harg3 arg4 harg4 arg5 harg5 arg6 harg6 arg7 harg7 hc x0 x1 x2 x3 x4).2.1)
/-- What a later point leaves in the result block, the scratch holding `xs`. -/
def outLater (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : ¬cond0 i) (x0 : Vec F S4096x128 .f32) (x1 : Vec F S128x128 .f32) (x2 : Vec F S1x128 .f32) (x3 : Vec F S512x2048 .f32) (x4 : Vec F S512x2048 .f32) (xs : Vec F S4096x128 .bf16) : Vec F S512x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The scratch from the first point on. -/
def scr (c : Dev nD) : Vec F S4096x128 .bf16 :=
  scrFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) scM (Memref.isWhole_whole _) ((hcond0 t0_0).mpr rfl) (iblk m c 0 t0_0) (iblk m c 1 t0_0) (iblk m c 2 t0_0) (iblk m c 3 t0_0) (iblk m c 4 t0_0)

/-- The result block after point `t`. -/
def outAt (c : Dev nD) (t : Fin cfg0.N) : Vec F S512x128 .f32 :=
  if h : t.val = 0 then
    outFirst c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t)
  else
    outLater c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (scr m c)

/-- The body's invariant before position `n`: at the start the scratch at anything, afterwards at `scr`. -/
def PhiS (c : Dev nD) : ℕ → sProp 𝕄
  | 0 => iprop(∃ d, owns (c : Thread nD τ) scM fullShare d)
  | _ + 1 => owns (c : Thread nD τ) scM fullShare (scr m c)

theorem PhiS_pos (c : Dev nD) (n : ℕ) (hz : n ≠ 0) : PhiS m c n = owns (c : Thread nD τ) scM fullShare (scr m c) := by
  cases n with
  | zero => exact absurd rfl hz
  | succ n => rfl

/-! ## The proof data -/

/-- On core `c`: the arrays as the region finds them; after the body each input's buffer at its block and the
    result's at `outAt`; the invariant `PhiS`; the adjacency array's two windows at complementary half shares, the
    other inputs at the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = owns (c : Thread nD τ) scM fullShare (scr m c) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) :
    (dats m 0 c).leavesExact 0 t = owns (c : Thread nD τ) (ms0 t) fullShare ((dats m 0 c).after 0 t) := by
  unfold Dat.leavesExact; rw [live0 t]
theorem leaves1 (c : Dev nD) (t : Fin cfg0.N) :
    (dats m 0 c).leavesExact 1 t = owns (c : Thread nD τ) (ms1 t) fullShare ((dats m 0 c).after 1 t) := by
  unfold Dat.leavesExact; rw [live1 t]
theorem leaves2 (c : Dev nD) (t : Fin cfg0.N) :
    (dats m 0 c).leavesExact 2 t = owns (c : Thread nD τ) (ms2 t) fullShare ((dats m 0 c).after 2 t) := by
  unfold Dat.leavesExact; rw [live2 t]
theorem leaves3 (c : Dev nD) (t : Fin cfg0.N) :
    (dats m 0 c).leavesExact 3 t = owns (c : Thread nD τ) (ms3 t) fullShare ((dats m 0 c).after 3 t) := by
  unfold Dat.leavesExact; rw [live3 t]
theorem leaves4 (c : Dev nD) (t : Fin cfg0.N) :
    (dats m 0 c).leavesExact 4 t = owns (c : Thread nD τ) (ms4 t) fullShare ((dats m 0 c).after 4 t) := by
  unfold Dat.leavesExact; rw [live4 t]
theorem leaves5 (c : Dev nD) (t : Fin cfg0.N) :
    (dats m 0 c).leavesExact 5 t = owns (c : Thread nD τ) (ms5 t) fullShare ((dats m 0 c).after 5 t) := by
  unfold Dat.leavesExact; rw [live5 t]

set_option maxHeartbeats 4800000 in
/-- At any point the inputs' buffers hold their blocks; at the first point the first run applies, with the scratch
    at anything, and leaves it at `scr`; at a later point the later run applies with the scratch at `scr`, and
    hands it back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_succ, Phi_castSucc, leaves0, leaves1, leaves2, leaves3, leaves4, leaves5, after0, after1, after2, after3, after4, after5]
  by_cases hz : t.val = 0
  · obtain rfl : t = t0_0 := Fin.ext hz
    rw [show outAt m c t0_0 = outFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) scM (Memref.isWhole_whole _) ((hcond0 t0_0).mpr rfl) (iblk m c 0 t0_0) (iblk m c 1 t0_0) (iblk m c 2 t0_0) (iblk m c 3 t0_0) (iblk m c 4 t0_0) from dif_pos rfl]
    rw [show PhiS m c (t0_0 : Fin cfg0.N).val = iprop(∃ d, owns (c : Thread nD τ) scM fullShare d) from rfl]
    unfold outFirst scr scrFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t0_0) _ _ _ _ _ _ _ _ _ _ _ _ _ _ ((hcond0 t0_0).mpr rfl) (iblk m c 0 t0_0) (iblk m c 1 t0_0) (iblk m c 2 t0_0) (iblk m c 3 t0_0) (iblk m c 4 t0_0)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverFirstS c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst5 c _ _ _ _ _ _ _ _ _ _ _ _ _ _ _ _ _ _ _ _ _)
  · rw [show outAt m c t = outLater c (grid0.coords t) (ms0 t) (hs0 t) (ms1 t) (hs1 t) (ms2 t) (hs2 t) (ms3 t) (hs3 t) (ms4 t) (hs4 t) (ms5 t) (hs5 t) scM (Memref.isWhole_whole _) (fun hc => hz ((hcond0 t).mp hc)) (iblk m c 0 t) (iblk m c 1 t) (iblk m c 2 t) (iblk m c 3 t) (iblk m c 4 t) (scr m c) from dif_neg hz]
    rw [PhiS_pos m c _ hz]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hc => hz ((hcond0 t).mp hc)) (iblk m c 0 t) (iblk m c 1 t) (iblk m c 2 t) (iblk m c 3 t) (iblk m c 4 t) (scr m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater5 c _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The launch -/

/-- A window's array is a whole buffer: held through the window, it is the buffer's points-to. -/
theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The buffers behind the windows' arrays, each whole at the full share, are the windows' arrays at their shares:
    the adjacency array's full share is its left half and its right half. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hb : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_v0) ↦{fullShare} V m c main_v0) ∗ (((c : Thread nD τ).loc main_arg1) ↦{fullShare} V m c main_arg1)
          ∗ (((c : Thread nD τ).loc main_v1) ↦{fullShare} V m c main_v1)) := by
    unfold Pipeline.arrBufs
    exact bigSep_eq_bigSepL_of_eq [main_arg0, main_arg2, main_v0, main_arg1, main_v1] (by decide) (by decide) _
  rw [hb]
  unfold Dat.arrays
  rw [bigSep_W0]
  rw [arr_pt c 0, arr_pt c 1, arr_pt c 2, arr_pt c 3, arr_pt c 4, arr_pt c 5]
  rw [show (dats m 0 c).share 0 = fullShare from rfl, show (dats m 0 c).share 1 = fullShare from rfl,
    show (dats m 0 c).share 2 = fullShare from rfl, show (dats m 0 c).share 3 = fullShare.left from rfl,
    show (dats m 0 c).share 4 = fullShare.right from rfl, show (dats m 0 c).share 5 = fullShare from rfl]
  iintro ⟨H0, H2, Hv0, H1, Hv1⟩
  ihave H1' := (pointsTo_share (PosShare.mem_left_op_right fullShare)).1 $$ H1
  icases H1' with ⟨H1l, H1r⟩
  isplitl [H0]; · iexact H0
  isplitl [H2]; · iexact H2
  isplitl [Hv0]; · iexact Hv0
  isplitl [H1l]; · iexact H1l
  isplitl [H1r]; · iexact H1r
  iexact Hv1

/-- Every weakly fair execution of @main terminates, with every array of the pipeline at what the write-backs
    leave and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_in m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest_scratch, show (dats m 0 c).Φ 0 = iprop(∃ d, owns (c : Thread nD τ) scM fullShare d) from rfl]
      iintro ⟨-, H⟩; iexact H)
    (hout := fun c => by
      rw [scopedRest_scratch]
      rw [show (dats m 0 c).Φ (Fin.last cfg0.N) = owns (c : Thread nD τ) scM fullShare (scr m c) from rfl]
      iintro H; isplitr; · iempintro
      iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The bias is no window's array and is unscoped: it bypasses the region. -/
theorem main_arg3_rest : main_arg3 ∈ Pipeline.restRefs sig spec0 :=
  Pipeline.mem_restRefs_of main_arg3 (by decide) (by decide)

/-- The frame: @main runs to the end without a fault and the four arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 1).trans (((dats m 0 c).arrAt_in 1 rfl _).trans ((A_eq m c 1).trans (V_main_arg2 m c))),
     ((h c).2 main_arg3 main_arg3_rest).trans (V_main_arg3 m c)⟩) (run_main m ρ)

end Cert.KernelIdeal.Run

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«111326_g70454643523774_cont_sun_c4_160_7_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.GcnSpec.lean ====
/-
  The graph-convolution layer as one function of its arguments, and the one law the kernel needs.
  The layer is `adj · (x · w)` with the bias laid along every row. The kernel computes a block of rows of it as
  `adjL · S_top + adjR · S_bottom + bias`, where `adjL`, `adjR` are the left and right column halves of those rows
  of `adj` and `S_top`, `S_bottom` the upper and lower row halves of `S = x · w`: a sum over the shared axis of 4096
  split at 2048 into two sums. Over the extended reals this needs only that addition is associative and
  commutative, so nothing is asked of the entries.
-/
import proofs.«111326_g70454643523774_cont_sun_c4_160_7_alg».proof.Proof.LibDense

noncomputable section

namespace Cert.GcnSpec

open Idealize.ShloMosaic Idealize.ShloMosaic.ValueIdx Cert.LayoutLib Cert.DenseLib

/-- The layer: `adj · (x · w)` plus the bias along every row. -/
def layer (x : (⟨2, ![4096, 128]⟩ : Shape).Idx → EReal) (adj : (⟨2, ![4096, 4096]⟩ : Shape).Idx → EReal)
    (w : (⟨2, ![128, 128]⟩ : Shape).Idx → EReal) (b : Fin 128 → EReal) : (⟨2, ![4096, 128]⟩ : Shape).Idx → EReal :=
  plus (mm adj (mm x w)) (rows b)

theorem layer_apply (x : (⟨2, ![4096, 128]⟩ : Shape).Idx → EReal) (adj : (⟨2, ![4096, 4096]⟩ : Shape).Idx → EReal)
    (w : (⟨2, ![128, 128]⟩ : Shape).Idx → EReal) (b : Fin 128 → EReal) (r : Fin 4096) (q : Fin 128) :
    layer x adj w b (ix2 r q) = (∑ k : Fin 4096, adj (ix2 r k) * mm x w (ix2 k q)) + b q := rfl

/-- A sum over 4096 indices is the sum over the first 2048 plus the sum over the last 2048. -/
theorem sum_halves (f : Fin 4096 → EReal) :
    ∑ k : Fin 4096, f k = ∑ k : Fin 2048, f ⟨k.val, by omega⟩ + ∑ k : Fin 2048, f ⟨2048 + k.val, by omega⟩ :=
  Fin.sum_univ_add (a := 2048) (b := 2048) f

/-- One block of rows of the layer from the two column halves of those rows of `adj` and the two row halves of
    `S`: if `AL`, `AR` are row `r` of `A` left and right of column 2048 (as row `p` of a block) and `SL`, `SR` are
    `S` above and below row 2048, then `AL · SL + AR · SR` at `(p, q)` is `A · S` at `(r, q)`. -/
theorem mm_halves {M M' : ℕ} (A : (⟨2, ![M, 4096]⟩ : Shape).Idx → EReal) (S : (⟨2, ![4096, 128]⟩ : Shape).Idx → EReal)
    (AL AR : (⟨2, ![M', 2048]⟩ : Shape).Idx → EReal) (SL SR : (⟨2, ![2048, 128]⟩ : Shape).Idx → EReal)
    (r : Fin M) (p : Fin M') (q : Fin 128)
    (hAL : ∀ k : Fin 2048, AL (ix2 p k) = A (ix2 r ⟨k.val, by omega⟩))
    (hAR : ∀ k : Fin 2048, AR (ix2 p k) = A (ix2 r ⟨2048 + k.val, by omega⟩))
    (hSL : ∀ k : Fin 2048, SL (ix2 k q) = S (ix2 ⟨k.val, by omega⟩ q))
    (hSR : ∀ k : Fin 2048, SR (ix2 k q) = S (ix2 ⟨2048 + k.val, by omega⟩ q)) :
    mm AL SL (ix2 p q) + mm AR SR (ix2 p q) = mm A S (ix2 r q) := by
  rw [mm_apply, mm_apply, mm_apply, sum_halves]
  congr 1
  · exact Finset.sum_congr rfl fun k _ => by rw [hAL, hSL]
  · exact Finset.sum_congr rfl fun k _ => by rw [hAR, hSR]

end Cert.GcnSpec

end
-- ==== Proof.IdealPayload.lean ====
/-
  What the stores leave, as arithmetic. The first point's scratch store leaves the product of the blocks of x
  and the weight; a point's result store leaves the body's second payload of the point's adjacency halves, the
  upper and lower halves of the scratch, and the bias row (at the first point the scratch halves are read back
  from what was just stored). Over the extended reals a narrowing to bf16 is the identity and a product
  accumulated into zero is the plain product, so the first payload is `x · w` and the second
  `adjL · S_top + adjR · S_bottom + bias row`.
-/
import proofs.«111326_g70454643523774_cont_sun_c4_160_7_alg».proof.Proof.IdealFrame
import proofs.«111326_g70454643523774_cont_sun_c4_160_7_alg».proof.Proof.GcnSpec
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.LayoutLib Cert.DenseLib Cert.GcnSpec

theorem hz : (![0, 0] : Fin 2 → Nat) = fun _ => 0 := funext fun a => by fin_cases a <;> rfl

/-- The upper and the lower half (rows 0 … 2047, rows 2048 … 4095) of a scratch-shaped array. -/
abbrev top (S : Vec F S4096x128 .bf16) : Vec F S2048x128 .bf16 :=
  View.ld S (Rect.unit (s := S4096x128) ![0, 0] S2048x128.size inb_S4096x128_S2048x128_0_0)
abbrev bot (S : Vec F S4096x128 .bf16) : Vec F S2048x128 .bf16 :=
  View.ld S (Rect.unit (s := S4096x128) ![2048, 0] S2048x128.size inb_S4096x128_S2048x128_2048_0)

/-! ## The stores' pieces read back -/

theorem scrFirst_eq (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) :
    scrFirst c i arg1 harg1 arg2 harg2 arg3 harg3 arg4 harg4 arg5 harg5 arg6 harg6 arg7 harg7 hc x0 x1 x2 x3 x4 = k0_pay1 x0 x1 := by
  unfold scrFirst
  rw [View.read_writes_junk_eq_canon]
  unfold runFirst; dsimp only; sl_unfold_words
  rw [View.canon_unit_zero hz]
  simp only [View.readAt_eq_ld, harg1.read_unread, harg2.read_unread, View.ld_unit_zero (S := S4096x128) hz, View.ld_unit_zero (S := S128x128) hz]

set_option maxHeartbeats 4000000 in
theorem outFirst_eq (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : cond0 i) (x0 : Vec F S4096x128 .f32) (x1 : Vec F S128x128 .f32) (x2 : Vec F S1x128 .f32) (x3 : Vec F S512x2048 .f32) (x4 : Vec F S512x2048 .f32) :
    outFirst c i arg1 harg1 arg2 harg2 arg3 harg3 arg4 harg4 arg5 harg5 arg6 harg6 arg7 harg7 hc x0 x1 x2 x3 x4 = k0_pay2 x3 (top (k0_pay1 x0 x1)) x4 (bot (k0_pay1 x0 x1)) x2 := by
  unfold outFirst
  rw [View.read_writes_junk_eq_canon]
  unfold runFirst; dsimp only; sl_unfold_words
  rw [View.canon_unit_zero hz]
  rw [View.readCov_eq_canon_ld _ _ _ (fun y => ⟨_, List.mem_singleton_self _, View.mem_set_unit_zero hz inb_S4096x128_S4096x128_0_0 y⟩),
    View.readCov_eq_canon_ld _ _ _ (fun y => ⟨_, List.mem_singleton_self _, View.mem_set_unit_zero hz inb_S4096x128_S4096x128_0_0 y⟩)]
  rw [View.canon_unit_zero hz]
  simp only [View.readAt_eq_ld, harg1.read_unread, harg2.read_unread, harg3.read_unread, harg4.read_unread, harg5.read_unread,
    View.ld_unit_zero (S := S4096x128) hz, View.ld_unit_zero (S := S128x128) hz, View.ld_unit_zero (S := S1x128) hz,
    View.ld_unit_zero (S := S512x2048) hz]

theorem outLater_eq (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S4096x128 .bf16) (harg7 : arg7.IsWhole) (hc : ¬cond0 i) (x0 : Vec F S4096x128 .f32) (x1 : Vec F S128x128 .f32) (x2 : Vec F S1x128 .f32) (x3 : Vec F S512x2048 .f32) (x4 : Vec F S512x2048 .f32) (xs : Vec F S4096x128 .bf16) :
    outLater c i arg1 harg1 arg2 harg2 arg3 harg3 arg4 harg4 arg5 harg5 arg6 harg6 arg7 harg7 hc x0 x1 x2 x3 x4 xs = k0_pay2 x3 (top xs) x4 (bot xs) x2 := by
  unfold outLater
  rw [View.read_writes_junk_eq_canon]
  unfold runLater; dsimp only; sl_unfold_words
  rw [View.canon_unit_zero hz]
  simp only [View.readAt_eq_ld, harg3.read_unread, harg4.read_unread, harg5.read_unread, harg7.read_unread,
    View.ld_unit_zero (S := S1x128) hz, View.ld_unit_zero (S := S512x2048) hz]

/-! ## The payloads over the extended reals -/

/-- The first payload is the product of its operands. -/
theorem pay1_eq (x : Vec Ideal S4096x128 .f32) (w : Vec Ideal S128x128 .f32) : k0_pay1 (F := Ideal) x w = mm x w := by
  unfold k0_pay1; dsimp only
  rw [shapeCast_self]
  exact matmul_eq_mm (φ₁ := .f32) (φ₂ := .f32) dot_S4096x128_S128x128_S4096x128_1_0_0_1_n_n rfl x w

/-- The second payload is the sum of two products and the bias row laid along every row. -/
theorem pay2_eq (a : Vec Ideal S512x2048 .f32) (sl : Vec Ideal S2048x128 .bf16) (b : Vec Ideal S512x2048 .f32)
    (sr : Vec Ideal S2048x128 .bf16) (bias : Vec Ideal S1x128 .f32) :
    k0_pay2 (F := Ideal) a sl b sr bias = plus (plus (mm a sl) (mm b sr)) (rows (M := 512) fun q => bias (ix2 (0 : Fin 1) q)) := by
  unfold k0_pay2; dsimp only
  rw [shapeCast_self, broadcastTo_eq_rows]
  rw [matmul_eq_mm (φ₁ := .bf16) (φ₂ := .bf16) dot_S512x2048_S2048x128_S512x128_1_0_0_1_n_n rfl,
    matmul_eq_mm (φ₁ := .bf16) (φ₂ := .bf16) dot_S512x2048_S2048x128_S512x128_1_0_0_1_n_n rfl]
  rfl

end Cert.KernelIdeal.Run

end
-- ==== Proof.IdealValue.lean ====
/-
  The result array of the idealized kernel is the layer. Every block the body reads is its array read where the
  point's rows lie: x and the weight whole, the bias row, and rows 512 t … 512 t + 511 of the adjacency matrix
  left and right of column 2048. So the scratch holds S = x · w from the first point on, and what point t writes
  back is, at row p and column q, adjL · S_top + adjR · S_bottom + bias — the sum over all 4096 columns of the
  adjacency row 512 t + p against column q of S, plus the bias at q: block t of the layer. The eight blocks tile
  the result array (row r lies in block r / 512), so after the run the array is the layer of the arguments.
-/
import proofs.«111326_g70454643523774_cont_sun_c4_160_7_alg».proof.Proof.IdealPayload

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.LayoutLib Cert.DenseLib Cert.GcnSpec

variable (m : (ℓ : Loc nD τ sig) → Buf (Elt Ideal) ℓ) (ρ : Dev nD → PrngReg)

/-! ## Where the blocks lie -/

/-- The windows' block indices at point `t`: x, the weight and the bias row at block (0, 0); the adjacency
    halves at (t, 0) and (t, 1); the result at (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 1
    ∧ win0_5.index t (0 : Fin 2) = t.val ∧ win0_5.index t (1 : Fin 2) = 0 :=
  (by decide +kernel : ∀ t : Fin grid0.N, _)

theorem blk0_apply (c : Dev nD) (t : Fin cfg0.N) (y : S4096x128.Idx) : iblk m c 0 t y = V m c main_arg0 y := by
  obtain ⟨e0, e1, -⟩ := idx_facts t
  show V m c main_arg0 (((cfg0.win 0).blk t).view.emb y) = V m c main_arg0 y
  refine congrArg _ (funext fun a => Fin.ext ?_)
  match a with
  | ⟨0, _⟩ => show win0_0.index t (0 : Fin 2) * 4096 + 1 * (y 0).val = (y 0).val; omega
  | ⟨1, _⟩ => show win0_0.index t (1 : Fin 2) * 128 + 1 * (y 1).val = (y 1).val; omega

theorem blk1_apply (c : Dev nD) (t : Fin cfg0.N) (y : S128x128.Idx) : iblk m c 1 t y = V m c main_arg2 y := by
  obtain ⟨-, -, e0, e1, -⟩ := idx_facts t
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem blk2_apply (c : Dev nD) (t : Fin cfg0.N) (y : S1x128.Idx) : iblk m c 2 t y = V m c main_v0 y := by
  obtain ⟨-, -, -, -, e0, e1, -⟩ := idx_facts t
  show V m c main_v0 (((cfg0.win 2).blk t).view.emb y) = V m c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk3_apply (c : Dev nD) (t : Fin cfg0.N) (p : Fin 512) (k : Fin 2048) (hr : 512 * t.val + p.val < 4096) :
    iblk m c 3 t (ix2 p k) = V m c main_arg1 (ix2 (⟨512 * t.val + p.val, hr⟩ : Fin 4096) (⟨k.val, by omega⟩ : Fin 4096)) := by
  obtain ⟨-, -, -, -, -, -, e0, e1, -⟩ := idx_facts t
  show V m c main_arg1 (((cfg0.win 3).blk t).view.emb (ix2 p k)) = _
  refine congrArg _ (funext fun a => Fin.ext ?_)
  match a with
  | ⟨0, _⟩ => show win0_3.index t (0 : Fin 2) * 512 + 1 * p.val = 512 * t.val + p.val; omega
  | ⟨1, _⟩ => show win0_3.index t (1 : Fin 2) * 2048 + 1 * k.val = k.val; omega

theorem blk4_apply (c : Dev nD) (t : Fin cfg0.N) (p : Fin 512) (k : Fin 2048) (hr : 512 * t.val + p.val < 4096) :
    iblk m c 4 t (ix2 p k) = V m c main_arg1 (ix2 (⟨512 * t.val + p.val, hr⟩ : Fin 4096) (⟨2048 + k.val, by omega⟩ : Fin 4096)) := by
  obtain ⟨-, -, -, -, -, -, -, -, e0, e1, -⟩ := idx_facts t
  show V m c main_arg1 (((cfg0.win 4).blk t).view.emb (ix2 p k)) = _
  refine congrArg _ (funext fun a => Fin.ext ?_)
  match a with
  | ⟨0, _⟩ => show win0_4.index t (0 : Fin 2) * 512 + 1 * p.val = 512 * t.val + p.val; omega
  | ⟨1, _⟩ => show win0_4.index t (1 : Fin 2) * 2048 + 1 * k.val = 2048 + k.val; omega

/-! ## The bias row -/

/-- The region finds the bias row as the reshape of the bias vector. -/
theorem V_bias (c : Dev nD) : (V m c main_v0 : S1x128.Idx → Elt Ideal .f32)
    = shapeCast S1x128 (m ((c : Thread nD τ).loc main_arg3)) shapeCasts_S128_S1x128 := by
  dsimp only [V, hostOps0]; after_results; rfl

theorem V_bias_apply (c : Dev nD) (q : Fin 128) :
    V m c main_v0 (ix2 (0 : Fin 1) q) = m ((c : Thread nD τ).loc main_arg3) (ix1 q) := by
  rw [V_bias]
  exact shapeCast_apply _ _ _ _ (by
    rw [Shape.rowMajor_val_two]
    show ((⟨1, ![128]⟩ : Shape).rowMajor (ix1 q)).val = _
    rw [Shape.rowMajor_val_one]
    show q.val = 0 * 128 + q.val
    omega)

/-! ## The scratch -/

/-- `S = x · w`, of the arrays as the region finds them. -/
abbrev Sxw (c : Dev nD) : (⟨2, ![4096, 128]⟩ : Shape).Idx → EReal := mm (V m c main_arg0) (V m c main_arg2)

theorem pay1_blk (c : Dev nD) (t : Fin cfg0.N) : k0_pay1 (F := Ideal) (iblk m c 0 t) (iblk m c 1 t) = Sxw m c :=
  (pay1_eq _ _).trans (congrArg₂ mm (funext (blk0_apply m c t)) (funext (blk1_apply m c t)))

theorem scr_eq (c : Dev nD) : scr m c = Sxw m c :=
  (scrFirst_eq c _ _ _ _ _ _ _ _ _ _ _ _ _ _ _ _ _ _ _ _ _).trans (pay1_blk m c t0_0)

/-! ## What a point leaves in the result block -/

theorem outAt_eq (c : Dev nD) (t : Fin cfg0.N) :
    outAt m c t = k0_pay2 (F := Ideal) (iblk m c 3 t) (top (Sxw m c)) (iblk m c 4 t) (bot (Sxw m c)) (iblk m c 2 t) := by
  unfold outAt
  by_cases hz : t.val = 0
  · rw [dif_pos hz]
    refine (outFirst_eq c _ _ _ _ _ _ _ _ _ _ _ _ _ _ _ _ _ _ _ _ _).trans ?_
    rw [pay1_blk]
  · rw [dif_neg hz]
    refine (outLater_eq c _ _ _ _ _ _ _ _ _ _ _ _ _ _ _ _ _ _ _ _ _ _).trans ?_
    rw [scr_eq]

theorem top_apply (S : (⟨2, ![4096, 128]⟩ : Shape).Idx → EReal) (k : Fin 2048) (q : Fin 128) :
    top (F := Ideal) S (ix2 k q) = S (ix2 (⟨k.val, by omega⟩ : Fin 4096) q) := by
  show S _ = S _
  refine congrArg _ (funext fun a => Fin.ext ?_)
  match a with
  | ⟨0, _⟩ => show 0 + 1 * k.val = k.val; omega
  | ⟨1, _⟩ => show 0 + 1 * q.val = q.val; omega

theorem bot_apply (S : (⟨2, ![4096, 128]⟩ : Shape).Idx → EReal) (k : Fin 2048) (q : Fin 128) :
    bot (F := Ideal) S (ix2 k q) = S (ix2 (⟨2048 + k.val, by omega⟩ : Fin 4096) q) := by
  show S _ = S _
  refine congrArg _ (funext fun a => Fin.ext ?_)
  match a with
  | ⟨0, _⟩ => show 2048 + 1 * k.val = 2048 + k.val; omega
  | ⟨1, _⟩ => show 0 + 1 * q.val = q.val; omega

/-- The layer of the arrays as the region finds them. -/
abbrev layerV (c : Dev nD) : (⟨2, ![4096, 128]⟩ : Shape).Idx → EReal :=
  layer (V m c main_arg0) (V m c main_arg1) (V m c main_arg2) (fun q => m ((c : Thread nD τ).loc main_arg3) (ix1 q))

theorem layer_split (x : (⟨2, ![4096, 128]⟩ : Shape).Idx → EReal) (adj : (⟨2, ![4096, 4096]⟩ : Shape).Idx → EReal)
    (w : (⟨2, ![128, 128]⟩ : Shape).Idx → EReal) (b : Fin 128 → EReal) (r : Fin 4096) (q : Fin 128) :
    layer x adj w b (ix2 r q) = mm adj (mm x w) (ix2 r q) + b q := rfl

/-- The second payload at row `p`, column `q`. -/
theorem pay2_apply (a : Vec Ideal S512x2048 .f32) (sl : Vec Ideal S2048x128 .bf16) (b : Vec Ideal S512x2048 .f32)
    (sr : Vec Ideal S2048x128 .bf16) (bias : Vec Ideal S1x128 .f32) (p : Fin 512) (q : Fin 128) :
    k0_pay2 (F := Ideal) a sl b sr bias (ix2 p q) = mm a sl (ix2 p q) + mm b sr (ix2 p q) + bias (ix2 (0 : Fin 1) q) := by
  rw [pay2_eq]; rfl

/-- If `a`, `b` hold row `r` of `A` left and right of column 2048 (as their row `p`) and `bias` holds the bias
    at column `q`, the second payload over the halves of `x · w` is the layer at `(r, q)`. -/
theorem block_layer (A : (⟨2, ![4096, 4096]⟩ : Shape).Idx → EReal) (x : (⟨2, ![4096, 128]⟩ : Shape).Idx → EReal)
    (w : (⟨2, ![128, 128]⟩ : Shape).Idx → EReal) (bvec : Fin 128 → EReal)
    (a b : Vec Ideal S512x2048 .f32) (bias : Vec Ideal S1x128 .f32) (r : Fin 4096) (p : Fin 512) (q : Fin 128)
    (ha : ∀ k : Fin 2048, a (ix2 p k) = A (ix2 r (⟨k.val, by omega⟩ : Fin 4096)))
    (hb : ∀ k : Fin 2048, b (ix2 p k) = A (ix2 r (⟨2048 + k.val, by omega⟩ : Fin 4096)))
    (hbias : bias (ix2 (0 : Fin 1) q) = bvec q) :
    k0_pay2 (F := Ideal) a (top (F := Ideal) (mm x w)) b (bot (F := Ideal) (mm x w)) bias (ix2 p q) = layer x A w bvec (ix2 r q) := by
  rw [pay2_apply, layer_split,
    mm_halves A (mm x w) a b (top (F := Ideal) (mm x w)) (bot (F := Ideal) (mm x w)) r p q ha hb
      (fun k => top_apply _ k q) (fun k => bot_apply _ k q), hbias]

/-- Row `p`, column `q` of what point `t` leaves is row `512 t + p`, column `q` of the layer. -/
theorem outAt_apply (c : Dev nD) (t : Fin cfg0.N) (p : Fin 512) (q : Fin 128) (hr : 512 * t.val + p.val < 4096) :
    outAt m c t (ix2 p q) = layerV m c (ix2 (⟨512 * t.val + p.val, hr⟩ : Fin 4096) q) :=
  (congrFun (outAt_eq m c t) (ix2 p q)).trans
    (block_layer (V m c main_arg1) (V m c main_arg0) (V m c main_arg2) (fun q => m ((c : Thread nD τ).loc main_arg3) (ix1 q))
      (iblk m c 3 t) (iblk m c 4 t) (iblk m c 2 t) ⟨512 * t.val + p.val, hr⟩ p q
      (fun k => blk3_apply m c t p k hr) (fun k => blk4_apply m c t p k hr)
      ((blk2_apply m c t _).trans (V_bias_apply m c q)))

/-! ## From blocks to the array -/

/-- What point `t` writes back is block `t` of the layer. -/
theorem flushed5_eq (c : Dev nD) (t : Fin cfg0.N) :
    (dats m 0 c).flushed 5 t = ((cfg0.win 5).blk t).view.read (Elt Ideal) (layerV m c) := by
  show (cfg0.win 5).cut (grid0.coords t) ((dats m 0 c).after 5 t) = _
  rw [after5]
  obtain ⟨-, -, -, -, -, -, -, -, -, -, e0, e1⟩ := idx_facts t
  have hN : t.val < 8 := lt_of_lt_of_eq t.isLt (show cfg0.N = 8 from N_0)
  funext j
  obtain ⟨p, q, rfl⟩ : ∃ (p : Fin 512) (q : Fin 128), j = ix2 p q := ⟨j 0, j 1, eq_ix2 j⟩
  show outAt m c t (ix2 p q) = layerV m c (((cfg0.win 5).blk t).view.emb (ix2 p q))
  have hp : p.val < 512 := p.isLt
  refine (outAt_apply m c t p q (by omega)).trans (congrArg _ (funext fun a => Fin.ext ?_))
  match a with
  | ⟨0, _⟩ => show 512 * t.val + p.val = win0_5.index t (0 : Fin 2) * 512 + 1 * p.val; omega
  | ⟨1, _⟩ => show q.val = win0_5.index t (1 : Fin 2) * 128 + 1 * q.val; omega

/-- An index of the result array is in point `t`'s block iff each coordinate is in the block's range. -/
theorem mem_blk5 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v1).slice (win0_5.rect t)).set ↔ _
  rw [View.set_slice_whole, Rect.mem_set_unit]
  exact Iff.rfl

/-- Row `r` of the result array lies in the block of point `r / 512`. -/
theorem cover5 (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 128 ≤ (i 1).val ∧ (i 1).val < win0_5.index t (1 : Fin 2) * 128 + 128; omega

/-- After the run the result array is the layer of the arguments. -/
theorem final5 (c : Dev nD) : (dats m 0 c).arrAt 5 cfg0.N
    = layer (m ((c : Thread nD τ).loc main_arg0)) (m ((c : Thread nD τ).loc main_arg1)) (m ((c : Thread nD τ).loc main_arg2))
        (fun q => m ((c : Thread nD τ).loc main_arg3) (ix1 q)) := by
  rw [(dats m 0 c).arrAt_eq_of_cover 5 (layerV m c) (fun t _ => flushed5_eq m c t) cover5]
  show layer _ _ _ _ = _
  rw [V_main_arg0, V_main_arg1, V_main_arg2]

/-! ## The run, read -/

/-- Every weakly fair execution of the idealized kernel terminates with the result array at the layer of the
    arguments and the arguments unchanged. -/
theorem run_value : θ_run defs (onTc (τ := τ) (main (F := Ideal))) ⟨m, fun _ => 0, ρ⟩ fun r => ∀ c : Dev nD,
      r.2.mem ((c.tc : Thread nD τ).loc main_v1)
        = layer (m ((c : Thread nD τ).loc main_arg0)) (m ((c : Thread nD τ).loc main_arg1)) (m ((c : Thread nD τ).loc main_arg2))
            (fun q => m ((c : Thread nD τ).loc main_arg3) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 5).trans (final5 m c),
     ((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 1).trans (((dats m 0 c).arrAt_in 1 rfl _).trans ((A_eq m c 1).trans (V_main_arg2 m c))),
     ((h c).2 main_arg3 main_arg3_rest).trans (V_main_arg3 m c)⟩) (run_main m ρ)

end Cert.KernelIdeal.Run

end
-- ==== Proof.RefLayer.lean ====
/-
  The reference program computes the layer. Its result is the entrywise sum of two terms: the general dot of the
  adjacency matrix with the general dot of x and the weight — over the extended reals each is the plain matrix
  product — and the bias vector broadcast first to one row and then down all 4096 rows, which lays the bias along
  every row.
-/
import proofs.«111326_g70454643523774_cont_sun_c4_160_7_alg».proof.Proof.Gen.ReferenceIdeal.Read
import proofs.«111326_g70454643523774_cont_sun_c4_160_7_alg».proof.Proof.GcnSpec

noncomputable section

namespace Cert.ReferenceIdeal.RefValue

open Cert.ReferenceIdeal Cert.ReferenceIdeal.Gen Idealize.ShloMosaic Idealize.ShloMosaic.ValueIdx
open Cert.LayoutLib Cert.DenseLib Cert.GcnSpec

/-- The reference's last stage, as a function of the four arguments, is the layer. -/
theorem ref_layer (x : (⟨S4096x128, .f32⟩ : BufTy).Contents (Elt Ideal)) (adj : (⟨S4096x4096, .f32⟩ : BufTy).Contents (Elt Ideal))
    (w : (⟨S128x128, .f32⟩ : BufTy).Contents (Elt Ideal)) (b : (⟨S128, .f32⟩ : BufTy).Contents (Elt Ideal)) :
    Read.val_main_v4 (F := Ideal) x adj w b = layer x adj w (fun q => b (ix1 q)) := by
  unfold Read.val_main_v4 Read.val_main_v1 Read.val_main_v0 Read.val_main_v3 Read.val_main_v2
  rw [dotGeneral_eq_mm (φ₁ := .f32) (φ₂ := .f32) dot_S4096x128_S128x128_S4096x128_1_0_0_1_n_n rfl,
    dotGeneral_eq_mm (φ₁ := .f32) (φ₂ := .f32) dot_S4096x4096_S4096x128_S4096x128_1_0_0_1_n_n rfl,
    broadcastInDim_eq_rows]
  rfl

end Cert.ReferenceIdeal.RefValue

end
-- ==== Proof.lean ====
/-
  A fused graph-convolution layer against its reference: out = adj · (x · w) + bias over f32[4096, 128],
  adj f32[4096, 4096], w f32[128, 128].

  The kernel runs eight grid points. At the first it computes S = x · w once into a scratch buffer; at every
  point t it streams rows 512 t … 512 t + 511 of adj as a left and a right column half and stores
  adjL · S[0 … 2047] + adjR · S[2048 … 4095] + bias into rows 512 t … of the result. The reference computes
  adj · (x · w) and adds the bias broadcast along the rows. Over the extended reals the kernel's narrowing of S and
  of adj to bf16 is the identity, a product accumulated into zero is the plain product, and the sum over the
  shared axis of 4096 splits at 2048 into the kernel's two sums by associativity and commutativity of addition
  alone; so both programs end with the same function of the arguments (`Cert.GcnSpec.layer`), whatever the
  entries, and finiteness of the inputs is never used.

  Each program's frame: the two kernels' by the body's run at the first point and at the later points (the
  scratch carried between points, the adjacency array lent to its two windows at complementary half shares); the
  reference's is its run with the result dropped. The idealization rewrote nothing, so that conjunct is trivial.
-/
import proofs.«111326_g70454643523774_cont_sun_c4_160_7_alg».proof.Defs
import proofs.«111326_g70454643523774_cont_sun_c4_160_7_alg».proof.Proof.Gen.Kernel
import proofs.«111326_g70454643523774_cont_sun_c4_160_7_alg».proof.Proof.Gen.KernelIdeal
import proofs.«111326_g70454643523774_cont_sun_c4_160_7_alg».proof.Proof.Gen.ReferenceIdeal
import proofs.«111326_g70454643523774_cont_sun_c4_160_7_alg».proof.Proof.Gen.Pre_finite_inputs
import proofs.«111326_g70454643523774_cont_sun_c4_160_7_alg».proof.Proof.Gen.ReferenceIdeal.Run
import proofs.«111326_g70454643523774_cont_sun_c4_160_7_alg».proof.Proof.Gen.ReferenceIdeal.Read
import proofs.«111326_g70454643523774_cont_sun_c4_160_7_alg».proof.Proof.BitsFrame
import proofs.«111326_g70454643523774_cont_sun_c4_160_7_alg».proof.Proof.IdealValue
import proofs.«111326_g70454643523774_cont_sun_c4_160_7_alg».proof.Proof.RefLayer
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the layer of the arguments they agree on. -/
theorem algebraic : Cert.algebraic_KernelIdeal_ReferenceIdeal := by
  intro m ρ m' ρ' _ hagree
  refine ⟨fun c => Cert.GcnSpec.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (fun q => m ((c : Thread Cert.KernelIdeal.nD Cert.KernelIdeal.τ).loc Cert.KernelIdeal.main_arg3) (ix1 q)),
    Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
